-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4x4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096 : Shape := ⟨1, ![4096]⟩
abbrev S16384x4096 : Shape := ⟨2, ![16384, 4096]⟩
abbrev S512x4096 : Shape := ⟨2, ![512, 4096]⟩
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096, .f32⟩
  | .local _ .vmem, ⟨5, _⟩ => ⟨S512x4096, .f32⟩
  | .local _ .vmem, ⟨6, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  inb_S4096_S4096_0 : ∀ a, (![0] : Fin 1 → Nat) a + S4096.size a ≤ S4096.size a
  h_S4096 : 0 < S4096.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S4096_S1x4096 : S4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S1x1x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4096 : S_.BroadcastsInDim S4096 (![] : Fin 0 → Fin S4096.rank)

variable [Facts₀]

class Facts : Prop extends Facts₀ where

variable [Facts]
-- ==== Proof.KernelPay.lean ====
/-
  What the kernel body stores, read at an entry of the block.

  The body loads a block `x0` of the first matrix, the same block `x1` of the second, and the whole weight row `w`;
  it views the row as a one-row matrix, repeats that row over the block's 512 rows, and stores
  `x1 + row·(x0 − x1)`.  At entry `(p, q)` of the block the repeated row contributes `w(q)`.
-/
import proofs.«113389_j34067680592528_2_alg».proof.Proof.Gen.KernelIdeal.Skeleton
import Idealize.ShloMosaic.Lib.ValueIdx
import Idealize.ShloMosaic.Lib.ValueLayout

noncomputable section

namespace Cert.KernelIdeal.KValue

open Cert.KernelIdeal Cert.KernelIdeal.Gen
open Idealize.ShloMosaic Idealize.ShloMosaic.ValueIdx

/-- The stored block at entry `(p, q)`: the second block's entry plus the weight at column `q` times the difference of
    the two blocks' entries. -/
theorem pay_apply (w : Vec Ideal S4096 .f32) (x0 x1 : Vec Ideal S512x4096 .f32) (p : Fin 512) (q : Fin 4096) :
    k0_pay1 (F := Ideal) w x0 x1 (ix2 p q) = x1 (ix2 p q) + w (ix1 q) * (x0 (ix2 p q) - x1 (ix2 p q)) := by
  unfold k0_pay1
  rw [addf_apply, mulf_apply, subf_apply, shapeCast_self, shapeCast_self, broadcastTo_1b_ab_apply,
    shapeCast_a_1a_apply]

end Cert.KernelIdeal.KValue

end
-- ==== Proof.BlendSpec.lean ====
/-
  The blend as one function of whole arrays.

  `blend3 x0 x1 w` is the result stated on the three-axis arrays: entry `(i, j, k)` is
  `x1(i,j,k) + w(k)·(x0(i,j,k) − x1(i,j,k))`, the weight row read at the last coordinate only.
  `blend2` is the same function on matrices, `(r, k) ↦ B(r,k) + w(k)·(A(r,k) − B(r,k))`: what the kernel
  computes after the two leading axes have been merged into one axis of rows.
-/
import Idealize.ShloMosaic.PureOps.Ideal
import Idealize.ShloMosaic.Lib.ValueIdx

noncomputable section

namespace Cert.Blend

open Idealize.ShloMosaic Idealize.ShloMosaic.ValueIdx

/-- The one-product blend of two three-axis arrays by a weight row along the last axis. -/
def blend3 {a b c : ℕ} (x0 x1 : (⟨3, ![a, b, c]⟩ : Shape).Idx → EReal) (w : (⟨1, ![c]⟩ : Shape).Idx → EReal) :
    (⟨3, ![a, b, c]⟩ : Shape).Idx → EReal :=
  fun i => x1 i + w (ix1 (⟨(i 2).val, (i 2).isLt⟩ : Fin c)) * (x0 i - x1 i)

theorem blend3_apply {a b c : ℕ} (x0 x1 : (⟨3, ![a, b, c]⟩ : Shape).Idx → EReal) (w : (⟨1, ![c]⟩ : Shape).Idx → EReal)
    (i : Fin a) (j : Fin b) (k : Fin c) :
    blend3 x0 x1 w (ix3 i j k) = x1 (ix3 i j k) + w (ix1 k) * (x0 (ix3 i j k) - x1 (ix3 i j k)) := rfl

/-- The one-product blend of two matrices by a weight row along the columns. -/
def blend2 {n c : ℕ} (A B : (⟨2, ![n, c]⟩ : Shape).Idx → EReal) (w : (⟨1, ![c]⟩ : Shape).Idx → EReal) :
    (⟨2, ![n, c]⟩ : Shape).Idx → EReal :=
  fun y => B y + w (ix1 (⟨(y 1).val, (y 1).isLt⟩ : Fin c)) * (A y - B y)

theorem blend2_apply {n c : ℕ} (A B : (⟨2, ![n, c]⟩ : Shape).Idx → EReal) (w : (⟨1, ![c]⟩ : Shape).Idx → EReal)
    (r : Fin n) (k : Fin c) :
    blend2 A B w (ix2 r k) = B (ix2 r k) + w (ix1 k) * (A (ix2 r k) - B (ix2 r k)) := rfl

end Cert.Blend

end
-- ==== Proof.KernelBlocks.lean ====
/-
  From blocks to the whole result matrix.

  The grid has 32 points.  Point `t` reads rows `512·t … 512·t + 511` of the two matrices (all 4096 columns) and the
  whole weight row, and writes the same rows of the result matrix.  So what point `t` writes back is block `t` of one
  function of whole arrays, the matrix blend `(r, k) ↦ B(r,k) + w(k)·(A(r,k) − B(r,k))`; and since the 32 blocks of
  512 rows tile the 16384 rows, the result matrix ends holding that function everywhere.
-/
import proofs.«113389_j34067680592528_2_alg».proof.Proof.Gen.KernelIdeal.Frame
import proofs.«113389_j34067680592528_2_alg».proof.Proof.KernelPay
import proofs.«113389_j34067680592528_2_alg».proof.Proof.BlendSpec
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- A whole-block access starts at row zero and column zero. -/
theorem zero_offsets2 : (![0, 0] : Fin 2 → Nat) = fun _ => 0 := funext fun a => by fin_cases a <;> rfl
/-- A whole-row access starts at column zero. -/
theorem zero_offsets1 : (![0] : Fin 1 → Nat) = fun _ => 0 := funext fun a => by fin_cases a; rfl

/-- Where each window's block sits at point `t`: the two matrix inputs and the result at block row `t`, block column
    zero; the weight row always at block zero. -/
theorem block_positions : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 1) = 0 :=
  (by decide +kernel : ∀ t : Fin grid0.N, _)

/-- A point's number is below 32. -/
theorem point_lt (t : Fin cfg0.N) : t.val < 32 := lt_of_lt_of_eq t.isLt N_0

/-- Row `p` of block `t` is row `512·t + p` of the matrix. -/
def blockRow (t : Fin cfg0.N) (p : Fin 512) : Fin 16384 :=
  ⟨t.val * 512 + p.val, by have := point_lt t; have := p.isLt; omega⟩

/-- Entry `(p, q)` of the result's block at point `t` sits at `(512·t + p, q)` of the result matrix. -/
theorem emb3 (t : Fin cfg0.N) (p : Fin 512) (q : Fin 4096) :
    ((cfg0.win 3).blk t).view.emb (ix2 p q) = ix2 (blockRow t p) q := by
  obtain ⟨e0, e1, -⟩ := block_positions t
  funext a; apply Fin.ext
  match a with
  | ⟨0, _⟩ => show win0_3.index t (0 : Fin 2) * 512 + 1 * p.val = t.val * 512 + p.val; omega
  | ⟨1, _⟩ => show win0_3.index t (1 : Fin 2) * 4096 + 1 * q.val = q.val; omega

/-- The first matrix's block at point `t`, at `(p, q)`, is the matrix at `(512·t + p, q)`. -/
theorem iblk0_apply (c : Dev nD) (t : Fin cfg0.N) (p : Fin 512) (q : Fin 4096) :
    iblk m c 0 t (ix2 p q) = (V m c main_v0 : S16384x4096.Idx → EReal) (ix2 (blockRow t p) q) := by
  obtain ⟨-, -, e0, e1, -⟩ := block_positions t
  show V m c main_v0 (((cfg0.win 0).blk t).view.emb (ix2 p q)) = V m c main_v0 (ix2 (blockRow t p) q)
  refine congrArg (V m c main_v0) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * q.val = q.val; omega

/-- The second matrix's block at point `t`, at `(p, q)`, is the matrix at `(512·t + p, q)`. -/
theorem iblk1_apply (c : Dev nD) (t : Fin cfg0.N) (p : Fin 512) (q : Fin 4096) :
    iblk m c 1 t (ix2 p q) = (V m c main_v1 : S16384x4096.Idx → EReal) (ix2 (blockRow t p) q) := by
  obtain ⟨-, -, -, -, e0, e1, -⟩ := block_positions t
  show V m c main_v1 (((cfg0.win 1).blk t).view.emb (ix2 p q)) = V m c main_v1 (ix2 (blockRow t p) q)
  refine congrArg (V m c main_v1) (funext fun a => Fin.ext ?_)
  match a with
  | ⟨0, _⟩ => show win0_1.index t (0 : Fin 2) * 512 + 1 * p.val = t.val * 512 + p.val; omega
  | ⟨1, _⟩ => show win0_1.index t (1 : Fin 2) * 4096 + 1 * q.val = q.val; omega

/-- The weight row's block at any point is the whole row. -/
theorem iblk2_apply (c : Dev nD) (t : Fin cfg0.N) (q : Fin 4096) :
    iblk m c 2 t (ix1 q) = (V m c main_arg2 : S4096.Idx → EReal) (ix1 q) := by
  obtain ⟨-, -, -, -, -, -, e0⟩ := block_positions t
  show V m c main_arg2 (((cfg0.win 2).blk t).view.emb (ix1 q)) = V m c main_arg2 (ix1 q)
  refine congrArg (V m c main_arg2) (funext fun a => Fin.ext ?_)
  match a with
  | ⟨0, _⟩ => show win0_2.index t (0 : Fin 1) * 4096 + 1 * q.val = q.val; omega

/-- The result matrix as one function of the arrays the grid reads. -/
abbrev resultMatrix (c : Dev nD) : S16384x4096.Idx → EReal :=
  Cert.Blend.blend2 (V m c main_v0) (V m c main_v1) (V m c main_arg2)

/-- What point `t` writes back is block `t` of the matrix blend. -/
theorem flushed_eq (c : Dev nD) (t : Fin cfg0.N) :
    (dats m 0 c).flushed 3 t = ((cfg0.win 3).blk t).view.read (Elt Ideal) (resultMatrix m c) := by
  show (cfg0.win 3).cut (grid0.coords t) ((dats m 0 c).after 3 t) = _
  rw [after0_3]
  unfold out0_3
  rw [View.canon_unit_zero zero_offsets2]
  simp only [View.ld_unit_zero (S := S512x4096) zero_offsets2, View.ld_unit_zero (S := S4096) zero_offsets1]
  funext y
  obtain ⟨p, q, rfl⟩ : ∃ (p : Fin 512) (q : Fin 4096), y = ix2 p q := ⟨y 0, y 1, eq_ix2 y⟩
  show k0_pay1 (F := Ideal) (iblk m c 2 t) (iblk m c 0 t) (iblk m c 1 t) (ix2 p q)
    = resultMatrix m c (((cfg0.win 3).blk t).view.emb (ix2 p q))
  refine (pay_apply _ _ _ p q).trans ?_
  rw [emb3, iblk0_apply, iblk1_apply, iblk2_apply]
  rfl

/-- An entry of the result matrix lies in point `t`'s block iff its row and column lie in the block's ranges. -/
theorem mem_blk3 (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Every entry of the result matrix is written by some point: row `r` by point `r / 512`. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 32 := N_0
  let t : Fin cfg0.N := ⟨(i 0).val / 512, by show (i 0).val / 512 < grid0.N; omega⟩
  obtain ⟨e0, e1, -⟩ := block_positions t
  have ht : t.val = (i 0).val / 512 := rfl
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- After the grid has run, the result matrix is the matrix blend of the arrays the grid read. -/
theorem final (c : Dev nD) : (dats m 0 c).arrAt 3 cfg0.N = resultMatrix m c :=
  (dats m 0 c).arrAt_eq_of_cover 3 (resultMatrix m c) (fun t _ => flushed_eq m c t) covered

end Cert.KernelIdeal.KValue

end
-- ==== Proof.LibReshapeRows.lean ====
/-
  Merging and splitting the two leading axes of a three-axis array, read at an index.

  A row-major array of shape `[a, b, c]` and the matrix of shape `[a·b, c]` with the same row-major contents hold the
  same entry at `(i, j, k)` and at `(i·b + j, k)`: both sit at position `(i·b + j)·c + k`.  Stated for any extents,
  with the row count `n` a separate number (so that a literal such as 16384 is matched as written) tied to `a` and `b`
  only through the row equation `r = i·b + j`.
-/
import Idealize.ShloMosaic.Lib.Pipeline.Value
import Idealize.ShloMosaic.Lib.ValueIdx

namespace Cert.ReshapeRows

open Idealize.ShloMosaic Idealize.ShloMosaic.ValueIdx

variable {α : Type}

/-- An `[a, b, c]` array reshaped to a matrix of `n` rows reads, at `(r, k)` with `r = i·b + j`, the array's entry
    `(i, j, k)`. -/
theorem merge_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- A matrix of `n` rows reshaped to `[a, b, c]` reads, at `(i, j, k)`, the matrix's entry `(r, k)` with
    `r = i·b + j`. -/
theorem split_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.ReshapeRows
-- ==== Proof.KernelArrays.lean ====
/-
  The arrays the kernel's grid reads, as functions of the inputs.

  Before the grid starts, each three-axis input `[4, 4096, 4096]` is reshaped to a matrix `[16384, 4096]` by merging
  its two leading axes: row `r = i·4096 + j` of the matrix is row `(i, j)` of the input.  The weight row is read as it
  is.  (The result's buffer starts as a copy of the first matrix; every entry of it is overwritten, so that copy
  plays no part in the value.)
-/
import proofs.«113389_j34067680592528_2_alg».proof.Proof.Gen.KernelIdeal.Frame
import proofs.«113389_j34067680592528_2_alg».proof.Proof.LibReshapeRows
import Idealize.ShloMosaic.Lib.StableHlo.Run

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first matrix is the first input with its leading axes merged. -/
theorem V_main_v0 (c : Dev nD) : (V m c main_v0 : S16384x4096.Idx → EReal)
    = shapeCast S16384x4096 (m ((c : Thread nD τ).loc main_arg0)) shapeCasts_S4x4096x4096_S16384x4096 := by
  show StableHlo.after hostOps0 (fun b => m (c, b)) (Proc.devRef .tc main_v0) = _
  after_results
  rfl

/-- The second matrix is the second input with its leading axes merged. -/
theorem V_main_v1 (c : Dev nD) : (V m c main_v1 : S16384x4096.Idx → EReal)
    = shapeCast S16384x4096 (m ((c : Thread nD τ).loc main_arg1)) shapeCasts_S4x4096x4096_S16384x4096 := by
  show StableHlo.after hostOps0 (fun b => m (c, b)) (Proc.devRef .tc main_v1) = _
  after_results
  rfl

/-- Entry `(r, k)` of the first matrix is entry `(i, j, k)` of the first input when `r = i·4096 + j`. -/
theorem V_main_v0_apply (c : Dev nD) (r : Fin 16384) (k : Fin 4096) (i : Fin 4) (j : Fin 4096)
    (hr : r.val = i.val * 4096 + j.val) :
    (V m c main_v0 : S16384x4096.Idx → EReal) (ix2 r k)
      = (m ((c : Thread nD τ).loc main_arg0) : S4x4096x4096.Idx → EReal) (ix3 i j k) := by
  rw [V_main_v0]
  exact Cert.ReshapeRows.merge_apply _ _ r k i j hr

/-- Entry `(r, k)` of the second matrix is entry `(i, j, k)` of the second input when `r = i·4096 + j`. -/
theorem V_main_v1_apply (c : Dev nD) (r : Fin 16384) (k : Fin 4096) (i : Fin 4) (j : Fin 4096)
    (hr : r.val = i.val * 4096 + j.val) :
    (V m c main_v1 : S16384x4096.Idx → EReal) (ix2 r k)
      = (m ((c : Thread nD τ).loc main_arg1) : S4x4096x4096.Idx → EReal) (ix3 i j k) := by
  rw [V_main_v1]
  exact Cert.ReshapeRows.merge_apply _ _ r k i j hr

end Cert.KernelIdeal.KValue

end
-- ==== Proof.KernelRun.lean ====
/-
  The kernel program's result as one function of its three inputs.

  After the grid, the result matrix `[16384, 4096]` is split back into `[4, 4096, 4096]`: entry `(i, j, k)` of the
  result is entry `(i·4096 + j, k)` of the matrix.  The matrix is the blend of the two merged inputs, and merging then
  splitting the leading axes returns each input's own entry `(i, j, k)`.  So the program ends with the three-axis
  blend `x1(i,j,k) + w(k)·(x0(i,j,k) − x1(i,j,k))` of its inputs, which are left unchanged.
-/
import proofs.«113389_j34067680592528_2_alg».proof.Proof.KernelBlocks
import proofs.«113389_j34067680592528_2_alg».proof.Proof.KernelArrays
import Idealize.ShloMosaic.Lib.StableHlo.Run

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The program's result buffer after the last reshape: the result matrix with its rows split into two axes. -/
theorem tail_v3 (c : Dev nD) :
    (Pipeline.afterTail₀ cfgs (dats m) 0 (V0 m) [hostOps1] c main_v3 : S4x4096x4096.Idx → EReal)
      = shapeCast S4x4096x4096 (resultMatrix m c) shapeCasts_S16384x4096_S4x4096x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = resultMatrix m c :=
    (Pipeline.withArrays_arr spec0 launch0.win.arr_inj c _ _ 3).trans (final m c)
  rw [e]
  rfl

/-- Row `(i, j)` of a three-axis array is row `i·4096 + j` of its matrix form. -/
def mergedRow (i : Fin 4) (j : Fin 4096) : Fin 16384 :=
  ⟨i.val * 4096 + j.val, by have := i.isLt; have := j.isLt; omega⟩

/-- The result at entry `(i, j, k)`: the blend of the inputs' entries there, weighted by the weight row at `k`. -/
theorem tail_v3_apply (c : Dev nD) (i : Fin 4) (j k : Fin 4096) :
    (Pipeline.afterTail₀ cfgs (dats m) 0 (V0 m) [hostOps1] c main_v3 : S4x4096x4096.Idx → EReal) (ix3 i j k)
      = Cert.Blend.blend3 (m ((c : Thread nD τ).loc main_arg0)) (m ((c : Thread nD τ).loc main_arg1))
          (m ((c : Thread nD τ).loc main_arg2)) (ix3 i j k) := by
  rw [tail_v3]
  refine (Cert.ReshapeRows.split_apply _ _ i j k (mergedRow i j) rfl).trans ?_
  refine (Cert.Blend.blend2_apply _ _ _ (mergedRow i j) k).trans ?_
  rw [V_main_v0_apply m c (mergedRow i j) k i j rfl, V_main_v1_apply m c (mergedRow i j) k i j rfl, V_main_arg2]
  rfl

/-- The result buffer is the three-axis blend of the inputs. -/
theorem result_eq (c : Dev nD) :
    (Pipeline.afterTail₀ cfgs (dats m) 0 (V0 m) [hostOps1] c main_v3 : S4x4096x4096.Idx → EReal)
      = Cert.Blend.blend3 (m ((c : Thread nD τ).loc main_arg0)) (m ((c : Thread nD τ).loc main_arg1))
          (m ((c : Thread nD τ).loc main_arg2)) := by
  funext y
  obtain ⟨i, j, k, rfl⟩ : ∃ (i : Fin 4) (j k : Fin 4096), y = ix3 i j k := ⟨y 0, y 1, y 2, eq_ix3 y⟩
  exact tail_v3_apply m c i j k

/-- Every weakly fair execution of the kernel program terminates with the result buffer at the three-axis blend of the
    inputs and the inputs unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3)
          = Cert.Blend.blend3 (m ((c : Thread nD τ).loc main_arg0)) (m ((c : Thread nD τ).loc main_arg1))
              (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KValue

end
-- ==== Proof.BlendLaw.lean ====
/-
  The one algebraic law of this certificate, and the two float words it meets.

  A linear blend of two numbers `a`, `b` with weight `w` can be written with one product,
  `b + w·(a − b)`, or with two, `a·w + b·(1 − w)`.  Over the real numbers the two are equal by
  distributivity.  Over the extended reals distributivity fails at the infinities, so the law is stated
  of real numbers coerced to extended reals; a caller first shows its entries are real.
-/
import Idealize.ShloMosaic.PureOps.Ideal
import Idealize.ShloMosaic.PureOps.Ideal.Laws

namespace Cert.Blend

open Idealize.ShloMosaic

/-- The f32 word `0x3F800000` denotes the real number one. -/
theorem one_f32 : Ideal.ofBits .f32 0x3F800000#32 = ((1 : ℝ) : EReal) := by
  simp [Ideal.ofBits, Ideal.ieee, -EReal.coe_mul]
  norm_num

/-- The f32 word `0x7F800000` denotes plus infinity. -/
theorem inf_f32 : Ideal.ofBits .f32 0x7F800000#32 = (⊤ : EReal) := by
  simp [Ideal.ofBits, Ideal.ieee]

/-- An extended real whose absolute value `max x (−x)` lies strictly below plus infinity is a real number:
    plus infinity fails the bound itself, and minus infinity has absolute value plus infinity. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- The blend with one product is the blend with two, for real entries read as extended reals:
    `b + w·(a − b) = a·w + b·(1 − w)`. -/
theorem lerp_eq (a b w : ℝ) :
    (b : EReal) + (w : EReal) * ((a : EReal) - (b : EReal))
      = (a : EReal) * (w : EReal) + (b : EReal) * (((1 : ℝ) : EReal) - (w : EReal)) := by
  rw [← EReal.coe_sub, ← EReal.coe_mul, ← EReal.coe_add, ← EReal.coe_sub, ← EReal.coe_mul, ← EReal.coe_mul,
    ← EReal.coe_add]
  exact congrArg _ (by ring)

end Cert.Blend
-- ==== Proof.FiniteEntries.lean ====
/-
  From the precondition to real entries.

  The precondition says, for each of the three input arrays, that every entry's absolute value is strictly below
  plus infinity (an "all" over the array, the three conjoined).  An extended real with that property is a real
  number, so under the precondition every entry of every input is a real number.
-/
import proofs.«113389_j34067680592528_2_alg».proof.Pre_finite_inputs
import proofs.«113389_j34067680592528_2_alg».proof.Proof.BlendLaw
import Idealize.ShloMosaic.PureOps.Ideal
import Idealize.ShloMosaic.PureOps.Ideal.Laws
import Idealize.ShloMosaic.Lib.ReduceAll
import Idealize.ShloMosaic.Lib.ValueIdx

noncomputable section

namespace Cert.Blend.Finite

open Idealize.ShloMosaic Idealize.ShloMosaic.ValueIdx Cert.Pre_finite_inputs

/-- The scalar shape has exactly one index. -/
instance : Subsingleton S_.Idx := ⟨fun a b => funext fun d => d.elim0⟩

/-- One entry: if the comparison "absolute value of `x` below `top`" holds at `i`, where `top` holds the word of plus
    infinity, then `x i` is a real number. -/
theorem real_of_cmp {s : Shape} (x top : FVec Ideal s .f32) (i : s.Idx)
    (htop : top i = Ideal.ofBits .f32 0x7F800000#32)
    (h : cmpf .olt (Host.absf x) top i = 1#1) : ∃ r : ℝ, x i = (r : EReal) := by
  apply Cert.Blend.real_of_abs_lt_top
  have h' : Ideal.cmp .olt (max (x i) (-(x i))) (top i) = 1#1 := h
  rw [htop, Cert.Blend.inf_f32] at h'
  by_cases hlt : max (x i) (-(x i)) < (⊤ : EReal)
  · exact hlt
  · exfalso
    have h0 : Ideal.cmp .olt (max (x i) (-(x i))) (⊤ : EReal) = 0#1 := by
      unfold Ideal.cmp
      rw [decide_eq_false hlt]
      rfl
    rw [h0] at h'
    exact absurd h' (by decide)

/-- Under the precondition every entry of each of the three inputs is a real number. -/
theorem reals_of_pre [Cert.Pre_finite_inputs.Facts] (x0 x1 : FVec Ideal S4x4096x4096 .f32) (x2 : FVec Ideal S4096 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, e2⟩ := IntOp.andi_eq_one.1 h0
  obtain ⟨e0, e1⟩ := IntOp.andi_eq_one.1 h01
  exact ⟨fun i => real_of_cmp _ _ i rfl (Host.reduce_andi_all _ _ _ _ _ e0 i),
    fun i => real_of_cmp _ _ i rfl (Host.reduce_andi_all _ _ _ _ _ e1 i),
    fun i => real_of_cmp _ _ i rfl (Host.reduce_andi_all _ _ _ _ _ e2 i)⟩

end Cert.Blend.Finite

end
-- ==== Proof.RefValue.lean ====
/-
  The reference read at an index.

  The reference multiplies the first array by the weight row and the second by one minus the weight row, both
  rows stretched over the two leading axes, and adds the products.  At entry `(i, j, k)` this is
  `x0(i,j,k)·w(k) + x1(i,j,k)·(1 − w(k))`: the two stretches only ever look at the last coordinate.
-/
import proofs.«113389_j34067680592528_2_alg».proof.Proof.Gen.ReferenceIdeal.Read
import proofs.«113389_j34067680592528_2_alg».proof.Proof.BlendLaw
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- Both stretches of a row over the leading axes read the row at the last coordinate. -/
theorem row_idx (i : Fin 4) (j k : Fin 4096) : idx_main_v0 (idx_main_v1 (ix3 i j k)) = ix1 k :=
  funext fun a => Fin.ext (by match a with | ⟨0, _⟩ => rfl)

/-- The reference's result at entry `(i, j, k)`: the two-product blend of the two arrays' entries there, weighted by
    the weight row's entry `k`. -/
theorem result_apply (x0 x1 : (⟨S4x4096x4096, .f32⟩ : BufTy).Contents (Elt Ideal))
    (x2 : (⟨S4096, .f32⟩ : BufTy).Contents (Elt Ideal)) (i : Fin 4) (j k : Fin 4096) :
    val_main_v8 (F := Ideal) x0 x1 x2 (ix3 i j k)
      = x0 (ix3 i j k) * x2 (ix1 k) + x1 (ix3 i j k) * (((1 : ℝ) : EReal) - x2 (ix1 k)) := by
  rw [val_main_v8_apply, val_main_v2_apply, val_main_v1_apply, val_main_v0_apply, val_main_v7_apply,
    val_main_v6_apply, val_main_v5_apply, val_main_v4_apply, val_main_v3_apply, val_main_cst_apply]
  have e : idx_main_v5 (idx_main_v6 (ix3 i j k)) = ix1 k := row_idx i j k
  rw [row_idx, e]
  simp only [Ideal.addf_def, Ideal.mulf_def, Ideal.subf_def, Ideal.ofBits_def, Cert.Blend.one_f32]

end Cert.ReferenceIdeal.RefValue

end
-- ==== Proof.Bridge.lean ====
/-
  The two programs compute one function of real inputs.

  At entry `(i, j, k)` the reference holds `x0·w + x1·(1 − w)` and the kernel `x1 + w·(x0 − x1)`, with
  `x0 = x0(i,j,k)`, `x1 = x1(i,j,k)`, `w = w(k)`.  When the three numbers are real these agree by the blend law;
  the hypotheses say every entry of every input is real.
-/
import proofs.«113389_j34067680592528_2_alg».proof.Proof.RefValue
import proofs.«113389_j34067680592528_2_alg».proof.Proof.BlendSpec
import proofs.«113389_j34067680592528_2_alg».proof.Proof.BlendLaw

noncomputable section

namespace Cert.Proof.Bridge

open Cert.ReferenceIdeal Cert.ReferenceIdeal.Gen
open Idealize.ShloMosaic Idealize.ShloMosaic.ValueIdx

/-- On arrays of real entries the reference's result is the one-product blend. -/
theorem reference_eq_blend (x0 x1 : (⟨S4x4096x4096, .f32⟩ : BufTy).Contents (Elt Ideal))
    (x2 : (⟨S4096, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    Cert.ReferenceIdeal.Read.val_main_v8 (F := Ideal) x0 x1 x2 = Cert.Blend.blend3 x0 x1 x2 := by
  funext y
  obtain ⟨i, j, k, rfl⟩ : ∃ (i : Fin 4) (j k : Fin 4096), y = ix3 i j k := ⟨y 0, y 1, y 2, eq_ix3 y⟩
  rw [Cert.ReferenceIdeal.RefValue.result_apply, Cert.Blend.blend3_apply]
  obtain ⟨a, ha⟩ := h0 (ix3 i j k)
  obtain ⟨b, hb⟩ := h1 (ix3 i j k)
  obtain ⟨w, hw⟩ := h2 (ix1 k)
  rw [ha, hb, hw]
  exact (Cert.Blend.lerp_eq a b w).symm

end Cert.Proof.Bridge

end
-- ==== Proof.lean ====
/-
  A linear blend along the last axis, written two ways.

  The inputs are two arrays `x0`, `x1` of shape `[4, 4096, 4096]` and a weight row `w` of length 4096.

  * The reference computes `x0·w + x1·(1 − w)`, the row stretched over the two leading axes: at entry `(i, j, k)` it
    holds `x0(i,j,k)·w(k) + x1(i,j,k)·(1 − w(k))`.
  * The kernel merges the two leading axes into 16384 rows, cuts the rows into 32 blocks of 512, computes
    `x1 + w·(x0 − x1)` on each block, and splits the rows back: at entry `(i, j, k)` it holds
    `x1(i,j,k) + w(k)·(x0(i,j,k) − x1(i,j,k))`.

  Both are read as exact functions on the extended reals.  The two expressions agree whenever the three numbers
  involved are real (distributivity; it fails at the infinities), and the precondition says that every input entry
  is finite, hence real.  So the two programs end with equal results.

  The pieces: the law and the two float words it meets (BlendLaw); the blend as a function of whole arrays
  (BlendSpec); real entries from the precondition (FiniteEntries); the reference at an entry (RefValue); the
  kernel's stored block at an entry (KernelPay), the matrices its grid reads (KernelArrays, over LibReshapeRows),
  the result matrix from its 32 blocks (KernelBlocks), and the whole program's result (KernelRun); the two
  results as one function (Bridge).  The kernel makes no rewrite on the way to its exact reading, so that part of
  the claim is trivial.
-/
import proofs.«113389_j34067680592528_2_alg».proof.Defs
import proofs.«113389_j34067680592528_2_alg».proof.Proof.Gen.Kernel
import proofs.«113389_j34067680592528_2_alg».proof.Proof.Gen.Kernel.Skeleton
import proofs.«113389_j34067680592528_2_alg».proof.Proof.Gen.Kernel.Launch
import proofs.«113389_j34067680592528_2_alg».proof.Proof.Gen.Kernel.Points
import proofs.«113389_j34067680592528_2_alg».proof.Proof.Gen.Kernel.Frame
import proofs.«113389_j34067680592528_2_alg».proof.Proof.Gen.KernelIdeal
import proofs.«113389_j34067680592528_2_alg».proof.Proof.Gen.KernelIdeal.Skeleton
import proofs.«113389_j34067680592528_2_alg».proof.Proof.Gen.KernelIdeal.Launch
import proofs.«113389_j34067680592528_2_alg».proof.Proof.Gen.KernelIdeal.Points
import proofs.«113389_j34067680592528_2_alg».proof.Proof.Gen.KernelIdeal.Frame
import proofs.«113389_j34067680592528_2_alg».proof.Proof.Gen.ReferenceIdeal
import proofs.«113389_j34067680592528_2_alg».proof.Proof.Gen.Pre_finite_inputs
import proofs.«113389_j34067680592528_2_alg».proof.Proof.Gen.ReferenceIdeal.Run
import proofs.«113389_j34067680592528_2_alg».proof.Proof.Gen.ReferenceIdeal.Read
import proofs.«113389_j34067680592528_2_alg».proof.Proof.KernelRun
import proofs.«113389_j34067680592528_2_alg».proof.Proof.FiniteEntries
import proofs.«113389_j34067680592528_2_alg».proof.Proof.Bridge
import Idealize.ShloMosaic.Adequacy
import Idealize.ShloMosaic.Init

noncomputable section

namespace Cert.Proof

open Idealize.ShloMosaic Idealize.SL.Sem

/-- The kernel program as printed runs to the end and leaves its inputs unchanged. -/
theorem frame_kernel : Cert.frame_Kernel := fun m ρ _ => Cert.Kernel.Gen.frame m ρ

/-- So does its exact reading. -/
theorem frame_kernel_ideal : Cert.frame_KernelIdeal := fun m ρ _ => Cert.KernelIdeal.Gen.frame m ρ

/-- So does the reference: its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From inputs that agree and are finite, the kernel ends with the one-product blend of its inputs and the reference
    with the two-product blend of the same inputs; on real entries these are one function. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Blend.Finite.reals_of_pre _ _ _ (hpre c)
  rw [(hagree c).1, (hagree c).2.1, (hagree c).2.2]
  exact (Cert.ReferenceIdeal.Read.val_main_v8_eq _ _ _).trans (Cert.Proof.Bridge.reference_eq_blend _ _ _ f0 f1 f2)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
